-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 32000#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x32000 : Shape := ⟨2, ![8192, 32000]⟩
abbrev S8192 : Shape := ⟨1, ![8192]⟩
abbrev S8192x1 : Shape := ⟨2, ![8192, 1]⟩
abbrev S32x32000 : Shape := ⟨2, ![32, 32000]⟩
abbrev S32x1 : Shape := ⟨2, ![32, 1]⟩
abbrev S32 : Shape := ⟨1, ![32]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S_, .f32⟩
  | .hbm, ⟨5, _⟩ => ⟨S_, .f32⟩
  | .local _ .vmem, ⟨0, _⟩ => ⟨S32x32000, .f32⟩
  | .local _ .vmem, ⟨1, _⟩ => ⟨S32x32000, .f32⟩
  | .local _ .vmem, ⟨2, _⟩ => ⟨S32x1, .i32⟩
  | .local _ .vmem, ⟨3, _⟩ => ⟨S32x1, .i32⟩
  | .local _ .vmem, ⟨4, _⟩ => ⟨S32x1, .f32⟩
  | .local _ .vmem, ⟨5, _⟩ => ⟨S32x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  inb_S32x32000_S32x32000_0_0 : ∀ a, (![0, 0] : Fin 2 → Nat) a + S32x32000.size a ≤ S32x32000.size a
  h_S32x32000 : 0 < S32x32000.numel
  reduces_S32x32000_S32 : S32x32000.Reduces [1] S32
  shapeCasts_S32_S32x1 : S32.ShapeCasts S32x1
  broadcasts_S32x1_S32x32000 : S32x1.Broadcasts S32x32000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x32000_d1_w32 : S32x32000.Iotas .tc 32 [1]
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S8192x32000.size a
  hwx0_0 : ∀ i : grid0.Coords, EltTy.bits .f32 = 32 ∨ (Rect.block (s := S8192x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S8192x1.size a
  hwx0_1 : ∀ i : grid0.Coords, EltTy.bits .i32 = 32 ∨ (Rect.block (s := S8192x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S8192x1.size a
  hwx0_2 : ∀ i : grid0.Coords, EltTy.bits .f32 = 32 ∨ (Rect.block (s := S8192x1) S32x1.size (cc0_transform_2 i) (hinb0_2 i)).WholeWords (EltTy.packing .f32)

variable [Facts₀]

abbrev win0_0 : Pipeline.Window sig grid0 :=
  Pipeline.Window.ofSpec (Memref.whole main_arg0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .i1⟩
  | .hbm, ⟨45, _⟩ => ⟨S_, .f32⟩
  | .hbm, ⟨46, _⟩ => ⟨S8192, .f32⟩
  | .hbm, ⟨47, _⟩ => ⟨S8192, .i1⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_cst_1 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_v9 : Ref sig .tc := ⟨.hbm, 52, rfl⟩
abbrev main_cst_3 : Ref sig .tc := ⟨.hbm, 53, rfl⟩
abbrev main_call3_v0 : Ref sig .tc := ⟨.hbm, 54, rfl⟩
abbrev main_v10 : Ref sig .tc := ⟨.hbm, 55, rfl⟩
abbrev main_cst_4 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_5 : Ref sig .tc := ⟨.hbm, 63, rfl⟩
abbrev main_v17 : Ref sig .tc := ⟨.hbm, 64, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«103107_j32856499815078_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.FocalSpec.lean ====
/-
  The focal loss of one row of logits, in two arrangements.

  For a row `x` of `n ≥ 1` logits and a target entry `xt`, let `M` be the row's maximum and
  `S = Σ_k exp (x k - M)`. The log-probability of the target is written either as
      xt - (log S + M)          (subtract the log-sum-exp)
  or as
      (xt - M) - log S          (the shifted logit minus the log of the normaliser);
  when every logit and the target entry are real numbers, `M` is real, `S` is a positive real and `log S` is real,
  so both are the real number `xt - M - log S`.

  From a log-probability `lp` with `p = exp lp` and `q = 1 - p` the loss is `-(q ^ γ) · lp`, where the exponent is
  `5` when `p < 0.2` and `3` otherwise. One arrangement selects between the products `q·q·q·q·q` and `q·q·q` and
  negates by subtracting from zero; the other selects the exponent — first on `p ≥ 0.5` (giving `3`), then on `p < 0.2` —
  and raises `q` to it as a real power. For a real `lp` the number `q` is real, a real power with exponent `3` or `5` is
  the repeated product, and since `0.2 < 0.5` the two selections agree.

  A target entry picked out of the row by comparing every position with the target's word and adding up the matches
  (zero elsewhere) is the entry at the target, when the word is a position of the row.
-/
import Mathlib
import Idealize.ShloMosaic.PureOps.Ideal
import Idealize.ShloMosaic.PureOps.Ideal.Laws
import proofs.«103107_j32856499815078_2_alg».proof.Proof.LibRealSum
import proofs.«103107_j32856499815078_2_alg».proof.Proof.LibSoftmaxRow

noncomputable section

open scoped BigOperators

namespace Cert.Focal

open Idealize.ShloMosaic Cert.LibRealSum Cert.LibSoftmaxRow

/-! ## The constants the two programs spell -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
/-- The f32 nearest to `0.2`. -/
theorem ofBits_fifth : Ideal.ofBits .f32 0x3E4CCCCD#32 = ((13421773 / 67108864 : ℝ) : EReal) := by
  simp [Ideal.ofBits, Ideal.ieee, -EReal.coe_mul]; norm_num

/-! ## The log-probability of the target -/

variable {n : ℕ}

/-- `xt - (log S + M)`. -/
def logpSub (x : Fin n → EReal) (xt : EReal) : EReal :=
  xt - (Ideal.log (∑ k, Ideal.exp (x k - rowMax x)) + rowMax x)

/-- `(xt - M) - log S`. -/
def logpShift (x : Fin n → EReal) (xt : EReal) : EReal :=
  (xt - rowMax x) - Ideal.log (∑ k, Ideal.exp (x k - rowMax x))

/-- On a real row and a real target entry both arrangements are one real number. -/
theorem logp_real (hn : 0 < n) (x : Fin n → EReal) (hx : ∀ k, IsReal (x k)) (xt : EReal) (hxt : IsReal xt) :
    ∃ a : ℝ, logpShift x xt = (a : EReal) ∧ logpSub x xt = (a : EReal) := by
  obtain ⟨M, hM⟩ := isReal_rowMax hn x hx
  choose s hs using hx
  obtain ⟨t, rfl⟩ := hxt
  have hexp : ∀ k, Ideal.exp (x k - (M : EReal)) = ((Real.exp (s k - M) : ℝ) : EReal) := fun k => by
    rw [hs k, ← EReal.coe_sub, Ideal.exp_coe]
  have hpos : 0 < ∑ i, Real.exp (s i - M) :=
    Finset.sum_pos (fun _ _ => Real.exp_pos _) ⟨⟨0, hn⟩, Finset.mem_univ _⟩
  refine ⟨t - M - Real.log (∑ i, Real.exp (s i - M)), ?_, ?_⟩
  · unfold logpShift
    rw [hM]
    simp only [hexp, ← coe_finset_sum]
    rw [Ideal.log_coe, if_neg (not_le.mpr hpos), ← EReal.coe_sub, ← EReal.coe_sub]
  · unfold logpSub
    rw [hM]
    simp only [hexp, ← coe_finset_sum]
    rw [Ideal.log_coe, if_neg (not_le.mpr hpos), ← EReal.coe_add, ← EReal.coe_sub]
    exact congrArg _ (by ring)

/-! ## The loss from the log-probability -/

/-- `q·q·q`. -/
def cube (q : EReal) : EReal := q * q * q
/-- `q·q·q·q·q`. -/
def fifth (q : EReal) : EReal := q * q * q * q * q

/-- Select between the two products, negate by subtracting from zero. -/
def lossProd (lp : EReal) : EReal :=
  (Ideal.ofBits .f32 0x00000000#32
    - Scalar.select (Ideal.cmp .olt (Ideal.exp lp) (Ideal.ofBits .f32 0x3E4CCCCD#32))
        (fifth (Ideal.ofBits .f32 0x3F800000#32 - Ideal.exp lp)) (cube (Ideal.ofBits .f32 0x3F800000#32 - Ideal.exp lp))) * lp

/-- Select the exponent, raise to it as a real power, negate. -/
def lossPow (lp : EReal) : EReal :=
  -(Ideal.pow (Ideal.ofBits .f32 0x3F800000#32 - Ideal.exp lp)
      (Scalar.select (Ideal.cmp .oge (Ideal.exp lp) (Ideal.ofBits .f32 0x3F000000#32)) (Ideal.ofBits .f32 0x40400000#32)
        (Scalar.select (Ideal.cmp .olt (Ideal.exp lp) (Ideal.ofBits .f32 0x3E4CCCCD#32)) (Ideal.ofBits .f32 0x40A00000#32)
          (Ideal.ofBits .f32 0x40400000#32)))) * lp

theorem rpow_three (q : ℝ) : Real.rpow q 3 = q * q * q := by
  rw [Real.rpow_eq_pow, show (3 : ℝ) = ((3 : ℕ) : ℝ) by norm_num, Real.rpow_natCast]; ring
theorem rpow_five (q : ℝ) : Real.rpow q 5 = q * q * q * q * q := by
  rw [Real.rpow_eq_pow, show (5 : ℝ) = ((5 : ℕ) : ℝ) by norm_num, Real.rpow_natCast]; ring

theorem select_one {α : Type} (u v : α) : Scalar.select (1#1) u v = u := by simp [Scalar.select]
theorem select_zero {α : Type} (u v : α) : Scalar.select (0#1) u v = v := by simp [Scalar.select]
theorem cmp_olt_of_lt {x y : EReal} (h : x < y) : Ideal.cmp .olt x y = 1#1 := by simp [Ideal.cmp, h]
theorem cmp_olt_of_not_lt {x y : EReal} (h : ¬ x < y) : Ideal.cmp .olt x y = 0#1 := by simp [Ideal.cmp, h]
theorem cmp_oge_of_le {x y : EReal} (h : y ≤ x) : Ideal.cmp .oge x y = 1#1 := by simp [Ideal.cmp, h]
theorem cmp_oge_of_not_le {x y : EReal} (h : ¬ y ≤ x) : Ideal.cmp .oge x y = 0#1 := by simp [Ideal.cmp, h]

/-- At a real log-probability the two arrangements of the loss agree. -/
theorem lossPow_eq_lossProd (a : ℝ) : lossPow (a : EReal) = lossProd (a : EReal) := by
  unfold lossPow lossProd cube fifth
  rw [Ideal.exp_coe, ofBits_one, ofBits_zero, ofBits_three, ofBits_five, ofBits_half, ofBits_fifth, ← EReal.coe_sub]
  by_cases h : Real.exp a < 13421773 / 67108864
  · have h1 : ((Real.exp a : ℝ) : EReal) < ((13421773 / 67108864 : ℝ) : EReal) := EReal.coe_lt_coe_iff.mpr h
    have h2 : ¬ ((1 / 2 : ℝ) : EReal) ≤ ((Real.exp a : ℝ) : EReal) := by
      rw [EReal.coe_le_coe_iff]; intro h'; linarith
    rw [cmp_olt_of_lt h1, cmp_oge_of_not_le h2, select_zero, select_one, select_one, Ideal.pow_coe_coe, rpow_five]
    simp only [← EReal.coe_mul, ← EReal.coe_sub, ← EReal.coe_neg]
    exact congrArg _ (by ring)
  · have h1 : ¬ ((Real.exp a : ℝ) : EReal) < ((13421773 / 67108864 : ℝ) : EReal) := by
      rw [EReal.coe_lt_coe_iff]; exact h
    by_cases h5 : ((1 / 2 : ℝ) : EReal) ≤ ((Real.exp a : ℝ) : EReal)
    · rw [cmp_olt_of_not_lt h1, cmp_oge_of_le h5, select_one, select_zero, Ideal.pow_coe_coe, rpow_three]
      simp only [← EReal.coe_mul, ← EReal.coe_sub, ← EReal.coe_neg]
      exact congrArg _ (by ring)
    · rw [cmp_olt_of_not_lt h1, cmp_oge_of_not_le h5, select_zero, select_zero, select_zero, Ideal.pow_coe_coe, rpow_three]
      simp only [← EReal.coe_mul, ← EReal.coe_sub, ← EReal.coe_neg]
      exact congrArg _ (by ring)

/-! ## The target entry as a sum of matches -/

/-- Compare every position's word with the target's word; add up the matching entries, zero elsewhere. -/
def pick (x : Fin n → EReal) (w : BitVec 32) : EReal :=
  ∑ c : Fin n, Scalar.select (IntOp.cmpi .eq (BitVec.ofNat 32 c.val) w) (x c) (Ideal.ofBits .f32 0x00000000#32)

/-- When the word is position `c₀` of a row of at most `2³²` entries, the sum of matches is the entry there. -/
theorem pick_eq (hn : n ≤ 2 ^ 32) (x : Fin n → EReal) (c₀ : Fin n) : pick x (BitVec.ofNat 32 c₀.val) = x c₀ := by
  unfold pick
  rw [Finset.sum_eq_single c₀]
  · simp [IntOp.cmpi, Scalar.select]
  · intro c _ hc
    have hne : BitVec.ofNat 32 c.val ≠ BitVec.ofNat 32 c₀.val := by
      intro he
      apply hc
      have := congrArg BitVec.toNat he
      simp only [BitVec.toNat_ofNat] at this
      have h1 : c.val < 2 ^ 32 := lt_of_lt_of_le c.isLt hn
      have h2 : c₀.val < 2 ^ 32 := lt_of_lt_of_le c₀.isLt hn
      rw [Nat.mod_eq_of_lt h1, Nat.mod_eq_of_lt h2] at this
      exact Fin.ext this
    have hb : (BitVec.ofNat 32 c.val == BitVec.ofNat 32 c₀.val) = false := beq_eq_false_iff_ne.mpr hne
    simp [IntOp.cmpi, Scalar.select, hb, ofBits_zero]
  · intro h; exact absurd (Finset.mem_univ _) h

/-! ## The loss of one row -/

/-- The loss of a row with target word `w`: the target picked as a sum of matches, the log-sum-exp subtracted, the
    products selected. -/
def rowLoss (x : Fin n → EReal) (w : BitVec 32) : EReal := lossProd (logpSub x (pick x w))

end Cert.Focal

end
-- ==== Proof.FocalBody.lean ====
/-
  What the kernel's body stores for one row of a block.

  The body receives a block of 32 rows of 32000 logits and a column of 32 target words. For row `p` it takes the row's
  maximum, the sum of the exponentials of the shifted logits, the logarithm of that sum plus the maximum, the target's
  logit as the sum over the lanes of the logits whose lane number equals the target word, the difference of the two
  as the log-probability, and from it the loss by the selected product. Read at `(p, 0)` the stored column is
  therefore the row loss of row `p` of the block with the block's `p`-th target word.
-/
import proofs.«103107_j32856499815078_2_alg».proof.Proof.Gen.KernelIdeal.Skeleton
import Idealize.ShloMosaic.Lib.ValueIdx
import Idealize.ShloMosaic.Lib.Pipeline.Value
import Idealize.ShloMosaic.PureOps.Ideal.Laws
import proofs.«103107_j32856499815078_2_alg».proof.Proof.LibRowReduce
import proofs.«103107_j32856499815078_2_alg».proof.Proof.LibColBroadcast
import proofs.«103107_j32856499815078_2_alg».proof.Proof.FocalSpec

noncomputable section

open scoped BigOperators

namespace Cert.KernelIdeal.Body

open Cert.KernelIdeal Cert.KernelIdeal.Gen Idealize.ShloMosaic Idealize.ShloMosaic.ValueIdx Cert.Focal

section Pointwise

variable {s : Shape} {φ : FTy}

theorem exp_apply (a : FVec Ideal s φ) (i : s.Idx) : exp a i = Ideal.exp (a i) := rfl
theorem log_apply (a : FVec Ideal s φ) (i : s.Idx) : log a i = Ideal.log (a i) := rfl
theorem cmpi_apply {w : Nat} (p : CmpIPredicate) (a b : IVec s w) (i : s.Idx) :
    cmpi p a b i = IntOp.cmpi p (a i) (b i) := rfl

end Pointwise

/-- The two spellings of a row's maximum folded from -∞ are one. -/
theorem rowMax_eq {n : ℕ} (f : Fin n → EReal) : Cert.LibRowReduce.rowMax f = Cert.LibSoftmaxRow.rowMax f := rfl

/-- The lane numbers of a `[32, 32000]` block: at `(p, c)` the word of `c`. -/
theorem iota_lane (h : S32x32000.Iotas .tc 32 [1]) (p : Fin 32) (c : Fin 32000) :
    iota .tc S32x32000 32 [1] h (ix2 p c) = BitVec.ofNat 32 c.val := by
  unfold iota
  simp

/-- The lane maximum of row `r` of a block, folded from -∞. -/
theorem max_row (src : FVec Ideal S32x32000 .f32) (h : S32x32000.Reduces [1] S32) (hφ : FKind.Formats .f32)
    (hacc : (0xFF800000#32 : BitVec 32) = 0xFF800000#32) (r : Fin 32) :
    multiReduction .maximumf [1] S32 src 0xFF800000#32 h hφ hacc (ix1 r)
      = Cert.LibSoftmaxRow.rowMax fun k : Fin 32000 => src (ix2 r k) :=
  Cert.LibRowReduce.multiReduction_max_row src h hφ hacc r

/-- The lane sum of row `r` of a block. -/
theorem add_row (src : FVec Ideal S32x32000 .f32) (h : S32x32000.Reduces [1] S32) (hφ : FKind.Formats .f32)
    (hacc : (0x00000000#32 : BitVec 32) = 0x00000000#32) (r : Fin 32) :
    multiReduction .add [1] S32 src 0x00000000#32 h hφ hacc (ix1 r) = ∑ k : Fin 32000, src (ix2 r k) :=
  Cert.LibRowReduce.multiReduction_add_row src h hφ hacc r

/-- The stored column at `(p, 0)` is the row loss of the block's row `p` with the block's `p`-th target word. -/
theorem pay_apply (x0 : Vec Ideal S32x32000 .f32) (t0 : Vec Ideal S32x1 .i32) (p : Fin 32) :
    k0_pay1 (F := Ideal) x0 t0 (ix2 p (0 : Fin 1))
      = rowLoss (fun c : Fin 32000 => x0 (ix2 p c)) (t0 (ix2 p (0 : Fin 1))) := by
  unfold k0_pay1 rowLoss lossProd logpSub pick cube fifth
  simp only [mulf_apply, subf_apply, addf_apply, select_apply, broadcast_apply, cmpf_apply, exp_apply, log_apply, cmpi_apply,
    Cert.LibRowReduce.shapeCast_col_apply]
  rw [max_row, add_row, add_row]
  simp only [mulf_apply, subf_apply, addf_apply, select_apply, broadcast_apply, cmpf_apply, exp_apply, log_apply, cmpi_apply,
    Cert.LibRowReduce.shapeCast_col_apply, Cert.LibColBroadcast.broadcastTo_a1_ab_apply, shapeCast_self, iota_lane,
    Ideal.ofBits_def, Ideal.cmpf_def]
  rw [max_row]
  have hpick : (∑ c : Fin 32000, Scalar.select (IntOp.cmpi CmpIPredicate.eq
        (iota Kind.tc S32x32000 32 [1] iota_S32x32000_d1_w32 (ix2 p c)) (t0 (ix2 p (0 : Fin 1)))) (x0 (ix2 p c))
        (Ideal.ofBits FTy.f32 0#32))
      = ∑ c : Fin 32000, Scalar.select (IntOp.cmpi CmpIPredicate.eq (BitVec.ofNat 32 c.val) (t0 (ix2 p (0 : Fin 1))))
          (x0 (ix2 p c)) (Ideal.ofBits FTy.f32 0#32) :=
    Finset.sum_congr rfl fun c _ => by rw [iota_lane]
  rw [hpick]

/-- The stored column at any index `y` of the block: the row loss of the block's row `y 0`. -/
theorem col_apply (x0 : Vec Ideal S32x32000 .f32) (t0 : Vec Ideal S32x1 .i32) (y : S32x1.Idx) :
    k0_pay1 (F := Ideal) x0 t0 y
      = rowLoss (fun c : Fin 32000 => x0 (ix2 (⟨(y 0).val, idx2_lt0 y⟩ : Fin 32) c)) (t0 y) := by
  obtain ⟨p, q, rfl⟩ : ∃ (p : Fin 32) (q : Fin 1), y = ix2 p q := ⟨y 0, y 1, eq_ix2 y⟩
  obtain rfl : q = 0 := Subsingleton.elim _ _
  exact pay_apply x0 t0 p

end Cert.KernelIdeal.Body

end
-- ==== Proof.FocalArray.lean ====
/-
  The array of per-row losses the region leaves, and the scalar the program returns.

  The grid has 256 points; point `t` is handed rows `32 t … 32 t + 31` of the logits and of the target column and
  writes back rows `32 t … 32 t + 31` of the `[8192, 1]` result. What it writes at row `r` of its block is the row loss of
  that row of the logits with that row's target word, so the write-back is block `t` of ONE function of the two arrays:
  `lossCol`, whose entry `(n, 0)` is the row loss of row `n`. The blocks tile the result (row `n` is in block `n / 32`),
  hence after the region the result array is `lossCol` of the logits and of the target column as the region finds them;
  the target column is the target vector recast `[8192] → [8192, 1]` by the host line before the region, and the scalar
  result is the host's sum of the result array from zero.
-/
import proofs.«103107_j32856499815078_2_alg».proof.Proof.Gen.KernelIdeal.Frame
import proofs.«103107_j32856499815078_2_alg».proof.Proof.FocalBody
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.Focal Cert.KernelIdeal.Body

variable (m : (ℓ : Loc nD τ sig) → Buf (Elt Ideal) ℓ) (ρ : Dev nD → PrngReg)

theorem hz : (![0, 0] : Fin 2 → Nat) = fun _ => 0 := funext fun a => by fin_cases a <;> rfl

/-- The column of row losses: entry `(n, 0)` is the row loss of row `n` of `X` with the target word `T (n, 0)`. -/
def lossCol (X : S8192x32000.Idx → EReal) (T : S8192x1.Idx → BitVec 32) : S8192x1.Idx → EReal :=
  fun i => rowLoss (fun c : Fin 32000 => X (ix2 (⟨(i 0).val, idx2_lt0 i⟩ : Fin 8192) c)) (T i)

/-- The printed index maps, decided over the grid: every window's block row is the point's number, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `lossCol` of the arrays as the region finds them. -/
theorem flushed_eq (c : Dev nD) (t : Fin cfg0.N) :
    (dats m 0 c).flushed 2 t
      = ((cfg0.win 2).blk t).view.read (Elt Ideal) (lossCol (V m c main_arg0) (V m c main_v0)) := by
  show (cfg0.win 2).cut (grid0.coords t) ((dats m 0 c).after 2 t) = _
  rw [after0_2]
  unfold out0_2
  rw [View.canon_unit_zero hz]
  simp only [View.ld_unit_zero (S := S32x32000) hz, View.ld_unit_zero (S := S32x1) hz]
  obtain ⟨e00, e01, e10, e11, e20, e21⟩ := idx_facts t
  funext j
  refine (col_apply (iblk m c 0 t) (iblk m c 1 t) j).trans ?_
  have h1 : ((cfg0.win 1).blk t).view.emb j = ((cfg0.win 2).blk t).view.emb j := by
    funext a; apply Fin.ext
    match a with
    | ⟨0, _⟩ => show win0_1.index t (0 : Fin 2) * 32 + 1 * (j 0).val = win0_2.index t (0 : Fin 2) * 32 + 1 * (j 0).val; omega
    | ⟨1, _⟩ => show win0_1.index t (1 : Fin 2) * 1 + 1 * (j 1).val = win0_2.index t (1 : Fin 2) * 1 + 1 * (j 1).val; omega
  have h0 : ∀ k : Fin 32000, ((cfg0.win 0).blk t).view.emb (ix2 (⟨(j 0).val, (j 0).isLt⟩ : Fin 32) k)
      = ix2 (⟨((((cfg0.win 2).blk t).view.emb j) 0).val, idx2_lt0 (((cfg0.win 2).blk t).view.emb j)⟩ : Fin 8192) k := by
    intro k
    funext a; apply Fin.ext
    match a with
    | ⟨0, _⟩ => show win0_0.index t (0 : Fin 2) * 32 + 1 * (j 0).val = win0_2.index t (0 : Fin 2) * 32 + 1 * (j 0).val; omega
    | ⟨1, _⟩ => show win0_0.index t (1 : Fin 2) * 32000 + 1 * k.val = k.val; omega
  show rowLoss (fun k : Fin 32000 => V m c main_arg0 (((cfg0.win 0).blk t).view.emb (ix2 (⟨(j 0).val, (j 0).isLt⟩ : Fin 32) k)))
        (V m c main_v0 (((cfg0.win 1).blk t).view.emb j))
    = rowLoss (fun k : Fin 32000 => V m c main_arg0
          (ix2 (⟨((((cfg0.win 2).blk t).view.emb j) 0).val, idx2_lt0 (((cfg0.win 2).blk t).view.emb j)⟩ : Fin 8192) k))
        (V m c main_v0 (((cfg0.win 2).blk t).view.emb j))
  rw [h1]
  congr 1
  funext k
  exact congrArg (V m c main_arg0) (h0 k)

/-- An index of the result array is in point `t`'s block iff each coordinate is in the block's range on its axis. -/
theorem mem_blk (t : Fin cfg0.N) (i : S8192x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v1).slice (win0_2.rect t)).set ↔ _
  rw [View.set_slice_whole, Rect.mem_set_unit]
  exact Iff.rfl

/-- Row `n` of the result is in the block of point `n / 32`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 256 := N_0
  refine ⟨⟨(i 0).val / 32, by rw [hN]; omega⟩, flush0_2 _, ?_⟩
  rw [mem_blk]
  obtain ⟨e00, e01, e10, e11, e20, e21⟩ := idx_facts ⟨(i 0).val / 32, by rw [hN]; omega⟩
  intro a
  match a with
  | ⟨0, _⟩ =>
    show win0_2.index _ (0 : Fin 2) * 32 ≤ (i 0).val ∧ (i 0).val < win0_2.index _ (0 : Fin 2) * 32 + 32
    rw [e20]; show (i 0).val / 32 * 32 ≤ (i 0).val ∧ (i 0).val < (i 0).val / 32 * 32 + 32; omega
  | ⟨1, _⟩ =>
    show win0_2.index _ (1 : Fin 2) * 1 ≤ (i 1).val ∧ (i 1).val < win0_2.index _ (1 : Fin 2) * 1 + 1
    rw [e21]; omega

/-- The result array after the region: the column of row losses of the arrays as the region finds them. -/
theorem final (c : Dev nD) : (dats m 0 c).arrAt 2 cfg0.N = lossCol (V m c main_arg0) (V m c main_v0) :=
  (dats m 0 c).arrAt_eq_of_cover 2 (lossCol (V m c main_arg0) (V m c main_v0)) (fun t _ => flushed_eq m c t) (cover)

end Cert.KernelIdeal.Arr

end
-- ==== Proof.FocalTotal.lean ====
/-
  The scalar both programs return: zero plus the sum over the 8192 rows of the row loss of that row of the logits
  with that row's target word.
-/
import Idealize.ShloMosaic.Lib.ValueIdx
import proofs.«103107_j32856499815078_2_alg».proof.Proof.FocalSpec

noncomputable section

open scoped BigOperators

namespace Cert.Focal

open Idealize.ShloMosaic Idealize.ShloMosaic.ValueIdx

/-- Zero plus the sum over the rows `n` of the row loss of row `n` of `X` with the target word `T n`. -/
def total (X : (⟨2, ![8192, 32000]⟩ : Shape).Idx → EReal) (T : (⟨1, ![8192]⟩ : Shape).Idx → BitVec 32) :
    (⟨0, ![]⟩ : Shape).Idx → EReal :=
  fun _ => Ideal.ofBits .f32 0x00000000#32 + ∑ n : Fin 8192, rowLoss (fun c : Fin 32000 => X (ix2 n c)) (T (ix1 n))

end Cert.Focal

end
-- ==== Proof.FocalKernelRun.lean ====
/-
  The kernel's program, run: its scalar result is zero plus the sum of the row losses.

  Before the region the host recasts the target vector `[8192]` as the column `[8192, 1]` the region's second window
  reads; entry `(n, 0)` of the column is entry `n` of the vector. After the region the host sums the `[8192, 1]` result
  array from zero over both axes: zero plus the sum of the entries `(n, 0)`. With the result array the column of row
  losses, the scalar is zero plus the sum over `n` of the row loss of row `n` of the logits with target word `n`.
  The argument arrays end as they began.
-/
import proofs.«103107_j32856499815078_2_alg».proof.Proof.FocalArray
import proofs.«103107_j32856499815078_2_alg».proof.Proof.FocalTotal
import Idealize.ShloMosaic.Lib.IdealHost

noncomputable section

open scoped BigOperators
open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.Focal Cert.KernelIdeal.Body

variable (m : (ℓ : Loc nD τ sig) → Buf (Elt Ideal) ℓ) (ρ : Dev nD → PrngReg)

/-- The target column as the region finds it: the target vector recast `[8192] → [8192, 1]`. -/
theorem V_main_v0 (c : Dev nD) :
    V m c main_v0 = shapeCast S8192x1 (m ((c : Thread nD τ).loc main_arg1)) shapeCasts_S8192_S8192x1 := by
  show StableHlo.after hostOps0 (fun b => m (c, b)) (Proc.devRef .tc main_v0) = _
  after_results
  rfl

/-- The host's sum of a `[8192, 1]` array from zero over both axes: zero plus the sum of its entries `(n, 0)`. -/
theorem reduce_col (L : FVec Ideal S8192x1 .f32) :
    Host.reduceAdd (F := Ideal) L (constant S_ .f32 0x00000000#32) reducesTo_S8192x1_S_d0_1 h_S_
      = fun _ => Ideal.ofBits .f32 0x00000000#32 + ∑ n : Fin 8192, L (ix2 n (0 : Fin 1)) := by
  funext j
  rw [hostReduceAdd_apply, Ideal.hostReduceAdd_total _ (fun b => b.elim0), sum_idx2]
  simp only [Fin.sum_univ_one]
  rfl

/-- The scalar the tail computes from the result array. -/
theorem tail_eq (c : Dev nD) :
    Pipeline.afterTail₀ cfgs (dats m) 0 (V0 m) [hostOps1] c main_v2
      = Host.reduceAdd (F := Ideal) ((dats m 0 c).arrAt 2 cfg0.N) (constant S_ .f32 0x00000000#32) reducesTo_S8192x1_S_d0_1 h_S_ := by
  unfold Pipeline.afterTail₀
  show StableHlo.after hostOps1 _ (Proc.devRef .tc main_v2) = _
  after_results
  rw [Pipeline.withArrays_arr spec0 launch0.win.arr_inj c _ _ 2]

/-- The result array's sum is the total of the row losses of the argument arrays. -/
theorem value_eq (c : Dev nD) :
    Host.reduceAdd (F := Ideal) ((dats m 0 c).arrAt 2 cfg0.N) (constant S_ .f32 0x00000000#32) reducesTo_S8192x1_S_d0_1 h_S_
      = total (m ((c : Thread nD τ).loc main_arg0)) (m ((c : Thread nD τ).loc main_arg1)) := by
  rw [final m c, V_main_arg0 m c, V_main_v0 m c, reduce_col]
  funext j
  unfold total
  refine congrArg (fun s => Ideal.ofBits .f32 0x00000000#32 + s) (Finset.sum_congr rfl fun n _ => ?_)
  unfold lossCol
  rw [Cert.LibRowReduce.shapeCast_col_apply]

/-- The run, read: the scalar result at the total of the row losses, the arguments unchanged. -/
theorem run : θ_run defs (onTc (τ := τ) (main (F := Ideal))) ⟨m, fun _ => 0, ρ⟩ fun r => ∀ c : Dev nD,
      r.2.mem ((c : Thread nD τ).loc main_v2) = total (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(((h c).2 main_v2 (Pipeline.mem_restRefs_of main_v2 (by decide) (by decide))).trans (tail_eq m c)).trans (value_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Arr

end
-- ==== Proof.FocalRefSoft.lean ====
/-
  The reference's log-softmax, entry by entry.

  The reference takes each row's maximum (a reduce from -∞, then once more the maximum with -∞), subtracts it from the
  row, exponentiates, sums the row from zero, takes the logarithm and subtracts it from the shifted row. Entry `(n, c)` is
  therefore `(x (n, c) - M n) - log (Σ_k exp (x (n, k) - M n))` with `M n` the maximum of row `n`: the shifted-logit
  arrangement of the log-probability of entry `c` in row `n`.
-/
import proofs.«103107_j32856499815078_2_alg».proof.Proof.RefReadP
import proofs.«103107_j32856499815078_2_alg».proof.Proof.LibRowReduce
import proofs.«103107_j32856499815078_2_alg».proof.Proof.FocalSpec
import Idealize.ShloMosaic.Lib.ValueIdx
import Idealize.ShloMosaic.PureOps.Ideal.Laws

noncomputable section

open scoped BigOperators

namespace Cert.ReferenceIdeal.Soft

open Cert.ReferenceIdeal Cert.ReferenceIdeal.Gen Cert.ReferenceIdeal.ReadP Idealize.ShloMosaic Idealize.ShloMosaic.ValueIdx
open Cert.Focal

/-! ## The generated index functions at coordinates -/

theorem idx_v3 (n : Fin 8192) : idx_main_call0_v3 (ix2 n (0 : Fin 1)) = ix1 n := by
  funext a; match a with | ⟨0, _⟩ => rfl
theorem idx_v4 (n : Fin 8192) (c : Fin 32000) : idx_main_call0_v4 (ix2 n c) = ix2 n (0 : Fin 1) := by
  funext a; match a with | ⟨0, _⟩ => rfl | ⟨1, _⟩ => rfl
theorem idx_v7 (n : Fin 8192) (k : Fin 32000) : idx_main_call0_v7 (ix1 n) k = ix2 n k := by
  funext a; match a with | ⟨0, _⟩ => rfl | ⟨1, _⟩ => rfl
theorem idx_v8 (n : Fin 8192) : idx_main_call0_v8 (ix2 n (0 : Fin 1)) = ix1 n := by
  funext a; match a with | ⟨0, _⟩ => rfl
theorem idx_v10 (n : Fin 8192) (c : Fin 32000) : idx_main_call0_v10 (ix2 n c) = ix2 n (0 : Fin 1) := by
  funext a; match a with | ⟨0, _⟩ => rfl | ⟨1, _⟩ => rfl

/-- The two spellings of a row's maximum folded from -∞ are one. -/
theorem rowMax_eq {n : ℕ} (f : Fin n → EReal) : Cert.LibRowReduce.rowMax f = Cert.LibSoftmaxRow.rowMax f := rfl

/-- The row maximum the reference subtracts: the maximum of row `n` folded from -∞. -/
theorem v2_apply (x0 : (⟨S8192x32000, .f32⟩ : BufTy).Contents (Elt Ideal)) (n : Fin 8192) :
    val_main_call0_v2 (F := Ideal) x0 (ix1 n) = Cert.LibSoftmaxRow.rowMax (fun k : Fin 32000 => x0 (ix2 n k)) := by
  rw [val_main_call0_v2_apply, val_main_call0_v1_apply, val_main_call0_cst_0_apply]
  unfold val_main_call0_v0
  rw [Cert.LibRowReduce.hostReduce_max_row x0 (val_main_call0_cst (F := Ideal)) (fun i => rfl) reducesTo_S8192x32000_S8192_d1 (by decide) h_S_ n, rowMax_eq]
  exact Cert.LibSoftmaxRow.max_negInf _

/-- Entry `(n, c)` of the log-softmax: the shifted logit minus the logarithm of the row's normaliser. -/
theorem v0_apply (x0 : (⟨S8192x32000, .f32⟩ : BufTy).Contents (Elt Ideal)) (n : Fin 8192) (c : Fin 32000) :
    val_main_v0 (F := Ideal) x0 (ix2 n c) = logpShift (fun k : Fin 32000 => x0 (ix2 n k)) (x0 (ix2 n c)) := by
  rw [val_main_v0_apply, val_main_call0_v5_apply, val_main_call0_v4_apply, idx_v4, val_main_call0_v3_apply, idx_v3, v2_apply,
    val_main_call0_v10_apply, idx_v10, val_main_call0_v9_apply, val_main_call0_v8_apply, idx_v8, val_main_call0_v7_apply,
    val_main_call0_cst_1_apply]
  simp only [idx_v7, val_main_call0_v6_apply, val_main_call0_v5_apply, val_main_call0_v4_apply, idx_v4, val_main_call0_v3_apply,
    idx_v3, v2_apply]
  unfold logpShift
  simp only [Ideal.subf_def, Ideal.hostUnary_log_def, Ideal.hostUnary_exp_def, Ideal.ofBits_def, Ideal.ofBits_zero_f32, zero_add]

end Cert.ReferenceIdeal.Soft

end
-- ==== Proof.FocalRefTake.lean ====
/-
  The reference's take-along-axis, read at a row whose target word is a column of the row.

  For each row the reference adds 32000 to a negative target, tests `0 ≤ · ≤ 31999`, gathers the entry of the row at the
  (clamped) adjusted target and keeps it where the test holds. When the target word `w` of row `n`, read as a signed
  integer, lies in `[0, 32000)`: it is not negative, so nothing is added; both tests hold; the clamp leaves it; and the
  entry taken is entry `w` of row `n`.
-/
import proofs.«103107_j32856499815078_2_alg».proof.Proof.RefReadP
import Idealize.ShloMosaic.Lib.ValueIdx
import Idealize.ShloMosaic.Lib.Pipeline.Value
import Idealize.ShloMosaic.PureOps.Reduce

noncomputable section

namespace Cert.ReferenceIdeal.Take

open Cert.ReferenceIdeal Cert.ReferenceIdeal.Gen Cert.ReferenceIdeal.ReadP Idealize.ShloMosaic Idealize.ShloMosaic.ValueIdx

/-- A target word that, read signed, is a column of a row of 32000. -/
def InRange (w : BitVec 32) : Prop := 0 ≤ w.toInt ∧ w.toInt < 32000

/-! ## The three signed comparisons -/

theorem cmpi_slt_zero {w : BitVec 32} (h : 0 ≤ w.toInt) : IntOp.cmpi .slt w 0#32 = 0#1 := by
  have h' : ¬ w.toInt < 0 := not_lt.mpr h
  simp [IntOp.cmpi, BitVec.slt, h']
theorem cmpi_sge_zero {w : BitVec 32} (h : 0 ≤ w.toInt) : IntOp.cmpi .sge w 0#32 = 1#1 := by
  simp [IntOp.cmpi, BitVec.sle, h]
theorem cmpi_sle_last {w : BitVec 32} (h : w.toInt < 32000) : IntOp.cmpi .sle w 31999#32 = 1#1 := by
  have h' : w.toInt ≤ 31999 := by omega
  have h31 : (31999#32 : BitVec 32).toInt = 31999 := by decide
  simp [IntOp.cmpi, BitVec.sle, h31, h']

/-! ## The generated index functions at coordinates -/

theorem idx_v1 (n : Fin 8192) : idx_main_v1 (ix2 n (0 : Fin 1)) = ix1 n := by
  funext a; match a with | ⟨0, _⟩ => rfl
theorem idx_c1v5 (n : Fin 8192) : idx_main_call1_v5 (ix3 n (0 : Fin 1) (0 : Fin 1)) = ix2 n (0 : Fin 1) := by
  funext a; apply Fin.ext
  match a with
  | ⟨0, _⟩ => show ((n.val * 1 + 0) * 1 + 0) / 1 = n.val; omega
  | ⟨1, _⟩ => rfl

variable (x1 : (⟨S8192, .i32⟩ : BufTy).Contents (Elt Ideal))

/-- The adjusted target of row `n` is the target itself. -/
theorem c1v4_apply (n : Fin 8192) (h : InRange (x1 (ix1 n))) :
    val_main_call1_v4 (F := Ideal) x1 (ix2 n (0 : Fin 1)) = x1 (ix1 n) := by
  rw [val_main_call1_v4_apply, val_main_call1_v1_apply, val_main_v1_apply, idx_v1, val_main_call1_v0_apply,
    val_main_call1_c_apply, cmpi_slt_zero h.1, select_zero]

theorem c1v5_apply (n : Fin 8192) (h : InRange (x1 (ix1 n))) :
    val_main_call1_v5 (F := Ideal) x1 (ix3 n (0 : Fin 1) (0 : Fin 1)) = x1 (ix1 n) := by
  rw [val_main_call1_v5_apply, idx_c1v5, c1v4_apply x1 n h]

/-- A fold over an index type of one element is one application of the operation. -/
theorem fold_one {β : Type} {k : ℕ} (hk : k = 1) (op : β → β → β) [Std.Commutative op] [Std.Associative op] (b : β)
    (f : Fin k → β) : (Finset.univ : Finset (Fin k)).fold op b f = op (f ⟨0, by omega⟩) b := by
  subst hk
  rw [show (Finset.univ : Finset (Fin 1)) = {0} from rfl, Finset.fold_singleton]
  rfl

/-- The in-bounds test of row `n` holds. -/
theorem c1v12_apply (n : Fin 8192) (h : InRange (x1 (ix1 n))) :
    val_main_call1_v12 (F := Ideal) x1 (ix2 n (0 : Fin 1)) = 1#1 := by
  have hR : S8192x1x1.Reduces [2] S8192x1 := by decide
  have hl : ∀ k : Fin (S8192x1x1.size 2), hR.lift (ix2 n (0 : Fin 1)) k = ix3 n (0 : Fin 1) (0 : Fin 1) := by
    intro k
    funext a; apply Fin.ext
    match a with
    | ⟨0, _⟩ => rfl
    | ⟨1, _⟩ => rfl
    | ⟨2, _⟩ => show k.val = 0; have hk : k.val < 1 := k.isLt; omega
  unfold val_main_call1_v12
  rw [Host.reduce_eq_fold_single IntOp.andi _ _ reducesTo_S8192x1x1_S8192x1_d2 hR h_S_ (ix2 n (0 : Fin 1)),
    fold_one (rfl : S8192x1x1.size 2 = 1), Function.comp_apply, hl, val_main_call1_v11_apply, val_main_call1_v7_apply,
    val_main_call1_v10_apply, c1v5_apply x1 n h, val_main_call1_v6_apply, val_main_call1_c_2_apply, val_main_call1_v9_apply,
    val_main_call1_v8_apply, val_main_call1_c_1_apply, cmpi_sge_zero h.1, cmpi_sle_last h.2, val_main_call1_c_3_apply]
  decide

/-! ## The gather -/

/-- The gather along each row: result `(n, 0)` is the operand's row `n` at the start index `idx (n, 0, 0)`, read signed and
    clamped into `[0, 31999]`. -/
theorem gather_row {α : Type} (x : S8192x32000.Idx → α) (idx : IVec S8192x1x1 32) (n : Fin 8192) :
    Host.gather gather_S8192x32000_S8192x1x1_S8192x1_n_1_0_0_1_2_11 x idx (ix2 n (0 : Fin 1))
      = x (ix2 n ⟨min (idx (ix3 n (0 : Fin 1) (0 : Fin 1))).toInt.toNat (32000 - 1), by omega⟩) := by
  unfold Host.gather
  congr 1
  funext a
  refine Fin.ext ?_
  match a with
  | ⟨0, _⟩ =>
    show gather_S8192x32000_S8192x1x1_S8192x1_n_1_0_0_1_2_11.start (ix2 n (0 : Fin 1)) idx 0
        + gather_S8192x32000_S8192x1x1_S8192x1_n_1_0_0_1_2_11.batchCoord (ix2 n (0 : Fin 1)) 0
        + gather_S8192x32000_S8192x1x1_S8192x1_n_1_0_0_1_2_11.offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x32000_S8192x1x1_S8192x1_n_1_0_0_1_2_11.operandBatchingDims from
      List.mem_singleton.mpr rfl)]
    rfl
  | ⟨1, _⟩ =>
    show gather_S8192x32000_S8192x1x1_S8192x1_n_1_0_0_1_2_11.start (ix2 n (0 : Fin 1)) idx 1
        + gather_S8192x32000_S8192x1x1_S8192x1_n_1_0_0_1_2_11.batchCoord (ix2 n (0 : Fin 1)) 1
        + gather_S8192x32000_S8192x1x1_S8192x1_n_1_0_0_1_2_11.offCoord (ix2 n (0 : Fin 1)) 1
      = min (idx (ix3 n (0 : Fin 1) (0 : Fin 1))).toInt.toNat (32000 - 1)
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x32000_S8192x1x1_S8192x1_n_1_0_0_1_2_11.startIndexMap from
      List.mem_singleton.mpr rfl)]
    have hsi : gather_S8192x32000_S8192x1x1_S8192x1_n_1_0_0_1_2_11.siIdx (ix2 n (0 : Fin 1))
        ⟨List.idxOf (1 : Fin 2) gather_S8192x32000_S8192x1x1_S8192x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-! ## The taken entry -/

/-- The column a target word in range names. -/
def col (w : BitVec 32) (h : InRange w) : Fin 32000 := ⟨w.toInt.toNat, by have := h.1; have := h.2; omega⟩

/-- The word of the column of an in-range target word is the word. -/
theorem ofNat_col (w : BitVec 32) (h : InRange w) : BitVec.ofNat 32 (col w h).val = w := by
  have h0 := h.1
  have hw := w.isLt
  have hto : w.toInt = (w.toNat : Int) := by
    rw [BitVec.toInt_eq_toNat_cond] at h0 ⊢
    by_cases hc : 2 * w.toNat < 2 ^ 32
    · rw [if_pos hc]
    · rw [if_neg hc] at h0; omega
  show BitVec.ofNat 32 w.toInt.toNat = w
  rw [hto, Int.toNat_natCast, BitVec.ofNat_toNat, BitVec.setWidth_eq]

/-- Entry `(n, 0)` of what the reference takes: the operand's entry at row `n` and the target's column. -/
theorem v2_apply (x0 : (⟨S8192x32000, .f32⟩ : BufTy).Contents (Elt Ideal)) (n : Fin 8192) (h : InRange (x1 (ix1 n))) :
    val_main_v2 (F := Ideal) x0 x1 (ix2 n (0 : Fin 1)) = val_main_v0 (F := Ideal) x0 (ix2 n (col (x1 (ix1 n)) h)) := by
  rw [val_main_v2_apply, c1v12_apply x1 n h, select_one]
  unfold val_main_call1_v13
  rw [gather_row]
  refine congrArg (fun c => val_main_v0 (F := Ideal) x0 (ix2 n c)) (Fin.ext ?_)
  show min (val_main_call1_v5 (F := Ideal) x1 (ix3 n (0 : Fin 1) (0 : Fin 1))).toInt.toNat (32000 - 1) = (x1 (ix1 n)).toInt.toNat
  rw [c1v5_apply x1 n h]
  have := h.1; have := h.2; omega

end Cert.ReferenceIdeal.Take

end
-- ==== Proof.FocalRef.lean ====
/-
  The reference's scalar is the total of the row losses.

  Row `n` of the reference: the log-probability is the entry of the log-softmax at the target's column, which is the
  shifted-logit arrangement `(x (n, w) - M) - log S`; the loss is `-((1 - p) ^ γ) · lp` with the exponent selected and the power
  a real power; the scalar is the sum of the 8192 losses from zero. When every logit is real and every target word names a
  column, the log-probability is a real number equal to the log-sum-exp arrangement `x (n, w) - (log S + M)` with `x (n, w)`
  the sum of the matching entries, and at a real log-probability the real power is the repeated product: each row's loss is
  the row loss, and the scalar the total.
-/
import proofs.«103107_j32856499815078_2_alg».proof.Proof.FocalRefSoft
import proofs.«103107_j32856499815078_2_alg».proof.Proof.FocalRefTake
import proofs.«103107_j32856499815078_2_alg».proof.Proof.FocalTotal
import proofs.«103107_j32856499815078_2_alg».proof.Proof.LibRealSum

noncomputable section

open scoped BigOperators

namespace Cert.ReferenceIdeal.Ref

open Cert.ReferenceIdeal Cert.ReferenceIdeal.Gen Cert.ReferenceIdeal.ReadP Idealize.ShloMosaic Idealize.ShloMosaic.ValueIdx
open Cert.Focal Cert.LibRealSum Cert.ReferenceIdeal.Take

variable (x0 : (⟨S8192x32000, .f32⟩ : BufTy).Contents (Elt Ideal)) (x1 : (⟨S8192, .i32⟩ : BufTy).Contents (Elt Ideal))

theorem idx_v3 (n : Fin 8192) : idx_main_v3 (ix1 n) = ix2 n (0 : Fin 1) := by
  funext a; apply Fin.ext
  match a with
  | ⟨0, _⟩ => show n.val / 1 = n.val; omega
  | ⟨1, _⟩ => rfl

/-- The log-probability the reference takes for row `n`. -/
theorem v3_apply (n : Fin 8192) (h : InRange (x1 (ix1 n))) :
    val_main_v3 (F := Ideal) x0 x1 (ix1 n)
      = logpShift (fun k : Fin 32000 => x0 (ix2 n k)) (x0 (ix2 n (col (x1 (ix1 n)) h))) := by
  rw [val_main_v3_apply, idx_v3, Take.v2_apply x1 x0 n h, Cert.ReferenceIdeal.Soft.v0_apply]

/-- The reference's loss of row `n`, from its log-probability: the exponent selected, the power, the negation. -/
theorem v16_apply (n : Fin 8192) :
    val_main_v16 (F := Ideal) x0 x1 (ix1 n) = lossPow (val_main_v3 (F := Ideal) x0 x1 (ix1 n)) := by
  simp only [val_main_v16_apply, val_main_v15_apply, val_main_v14_apply, val_main_v12_apply, val_main_v11_apply,
    val_main_cst_4_apply, val_main_v4_apply, val_main_v13_apply, val_main_v10_apply, val_main_v6_apply, val_main_v5_apply,
    val_main_cst_apply, val_main_call3_v0_apply, val_main_cst_3_apply, val_main_v9_apply, val_main_v8_apply, val_main_v7_apply,
    val_main_cst_0_apply, val_main_call2_v0_apply, val_main_cst_1_apply, val_main_call2_v1_apply, val_main_cst_2_apply]
  unfold lossPow
  simp only [Ideal.mulf_def, Ideal.hostNegf_def, Ideal.negf_def, Ideal.hostPowf_def, Ideal.subf_def, Ideal.hostUnary_exp_def,
    Ideal.ofBits_def, Ideal.cmpf_def]

/-- With real logits and the target a column, the reference's loss of row `n` is the row loss. -/
theorem row_eq (hx : ∀ i, IsReal (x0 i)) (n : Fin 8192) (h : InRange (x1 (ix1 n))) :
    val_main_v16 (F := Ideal) x0 x1 (ix1 n) = rowLoss (fun k : Fin 32000 => x0 (ix2 n k)) (x1 (ix1 n)) := by
  rw [v16_apply, v3_apply x0 x1 n h]
  obtain ⟨a, ha1, ha2⟩ := logp_real (by norm_num : 0 < 32000) (fun k : Fin 32000 => x0 (ix2 n k)) (fun k => hx _)
    (x0 (ix2 n (col (x1 (ix1 n)) h))) (hx _)
  have hp := pick_eq (by norm_num : 32000 ≤ 2 ^ 32) (fun k : Fin 32000 => x0 (ix2 n k)) (col (x1 (ix1 n)) h)
  rw [ofNat_col] at hp
  unfold rowLoss
  rw [ha1, lossPow_eq_lossProd, hp, ha2]

/-- The reference's scalar, with real logits and every target a column: the total of the row losses. -/
theorem ref_eq (hx : ∀ i, IsReal (x0 i)) (ht : ∀ i, InRange (x1 i)) :
    val_main_v17 (F := Ideal) x0 x1 = total x0 x1 := by
  funext j
  rw [val_main_v17_apply, val_main_cst_5_apply]
  unfold total
  refine congrArg (fun s => Ideal.ofBits .f32 0x00000000#32 + s) ?_
  let e : Fin 8192 ≃ S8192.Idx := ⟨fun n => ix1 n, fun i => i 0, fun n => rfl, fun i => (eq_ix1 i).symm⟩
  rw [← Equiv.sum_comp e]
  exact Finset.sum_congr rfl fun n _ => row_eq x0 x1 hx n (ht (ix1 n))

end Cert.ReferenceIdeal.Ref

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«103107_j32856499815078_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.FocalPre.lean ====
/-
  What the precondition says of the two argument arrays.

  The precondition is the conjunction of three tests, each a reduction by "and" over a whole array down to one word: every
  logit has absolute value below +∞; every target word, read signed, is at least 0; every target word, read signed, is
  below 32000. The conjunction being 1, each test is 1, hence every entry passes: every logit is a real number and every
  target word names a column of a row of 32000.
-/
import proofs.«103107_j32856499815078_2_alg».proof.Proof.Gen.Pre_finite_inputs
import proofs.«103107_j32856499815078_2_alg».proof.Proof.LibFiniteAll
import Idealize.ShloMosaic.Lib.Affine
import Idealize.ShloMosaic.Lib.ReduceAll
import Idealize.ShloMosaic.Lib.ValueIdx

noncomputable section

namespace Cert.FocalPre

open Idealize.ShloMosaic Cert.LibRealSum Cert.Pre_finite_inputs Cert.Pre_finite_inputs.Gen

/-- A signed comparison "at least 0" that holds, read back. -/
theorem nonneg_of_sge {w : BitVec 32} (h : IntOp.cmpi .sge w 0#32 = 1#1) : 0 ≤ w.toInt := by
  by_contra hn
  simp [IntOp.cmpi, BitVec.sle, hn] at h

/-- A signed comparison "below 32000" that holds, read back. -/
theorem lt_of_slt {w : BitVec 32} (h : IntOp.cmpi .slt w 32000#32 = 1#1) : w.toInt < 32000 := by
  have h32 : (32000#32 : BitVec 32).toInt = 32000 := by decide
  by_contra hn
  simp [IntOp.cmpi, BitVec.slt, h32, hn] at h

/-- From the precondition's word being 1: every logit is real, every target word is a column. -/
theorem of_pre (X : FVec Ideal S8192x32000 .f32) (T : IVec S8192 32)
    (h : Cert.Pre_finite_inputs.fn (F := Ideal) X T = fun _ => 1#1) :
    (∀ i, IsReal (X i)) ∧ (∀ i, 0 ≤ (T i).toInt ∧ (T i).toInt < 32000) := by
  have h0 := congrFun h ValueIdx.ix0
  dsimp only [Cert.Pre_finite_inputs.fn] at h0
  obtain ⟨hab, hc⟩ := IntOp.andi_eq_one.mp h0
  obtain ⟨ha, hb⟩ := IntOp.andi_eq_one.mp hab
  refine ⟨fun i => Cert.Lib.FiniteAll.all_real X _ _ _ _ ha i, fun i => ⟨?_, ?_⟩⟩
  · exact nonneg_of_sge (Host.reduce_andi_all _ _ _ _ ValueIdx.ix0 hb i)
  · exact lt_of_slt (Host.reduce_andi_all _ _ _ _ ValueIdx.ix0 hc i)

end Cert.FocalPre

end
-- ==== Proof.lean ====
/-
  The focal loss summed over 8192 rows of 32000 logits: a row-blocked kernel against log-softmax, take-along-axis and a power.

  Both programs, read over the extended reals, return zero plus the sum over the rows of one row loss. For a row `x` with
  maximum `M` and normaliser `S = Σ_k exp (x k - M)`, the kernel forms the log-probability of the target as
  `x_t - (log S + M)`, taking `x_t` as the sum over the lanes of the logits whose lane number equals the target word, and the
  loss as `(0 - q^γ) · lp` with `q = 1 - exp lp`, where `q^γ` is the product `q·q·q·q·q` when `exp lp < 0.2` and `q·q·q`
  otherwise. The reference forms `(x_t - M) - log S` with `x_t` gathered at the target, selects the exponent `γ ∈ {3, 5}` and
  raises `q` to it as a real power.

  Under the precondition every logit is a real number and every target word, read signed, lies in `[0, 32000)`. Then `M`,
  `S > 0` and `log S` are real, so the two log-probabilities are one real number; the sum of matches is the gathered entry;
  a real power with exponent 3 or 5 of a real is the repeated product; and `0.2 < 0.5` makes the two selections of the exponent
  agree. (Without the range of the target the two differ: a negative target reads a wrapped column in the reference and no
  column at all in the kernel.)

  The kernel's side: each grid point writes back block `t` of the column of row losses, the 256 blocks tile the `[8192, 1]`
  result, and the host sums it. The reference's side: its run, stage by stage at an index. The frames of the two kernels are
  the generated ones; the reference's frame is its run with the result dropped; the idealization rewrote nothing.
-/
import proofs.«103107_j32856499815078_2_alg».proof.Defs
import proofs.«103107_j32856499815078_2_alg».proof.Proof.Gen.Kernel
import proofs.«103107_j32856499815078_2_alg».proof.Proof.Gen.Kernel.Frame
import proofs.«103107_j32856499815078_2_alg».proof.Proof.Gen.KernelIdeal
import proofs.«103107_j32856499815078_2_alg».proof.Proof.Gen.KernelIdeal.Frame
import proofs.«103107_j32856499815078_2_alg».proof.Proof.Gen.ReferenceIdeal
import proofs.«103107_j32856499815078_2_alg».proof.Proof.Gen.Pre_finite_inputs
import proofs.«103107_j32856499815078_2_alg».proof.Proof.RefRunP
import proofs.«103107_j32856499815078_2_alg».proof.Proof.RefReadP
import proofs.«103107_j32856499815078_2_alg».proof.Proof.FocalKernelRun
import proofs.«103107_j32856499815078_2_alg».proof.Proof.FocalRef
import proofs.«103107_j32856499815078_2_alg».proof.Proof.FocalPre
import Idealize.ShloMosaic.Adequacy
import Idealize.ShloMosaic.Init

noncomputable section

namespace Cert.Proof

open Idealize.ShloMosaic Idealize.SL.Sem Cert.Focal

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the total of the row losses of the argument arrays: the kernel's run unconditionally, the reference's
    because under the precondition every logit is real and every target word names a column. -/
theorem algebraic : Cert.algebraic_KernelIdeal_ReferenceIdeal := by
  intro m ρ m' ρ' hpre hagree
  refine ⟨fun c => total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, (hagree c).1, (hagree c).2]
  obtain ⟨hx, ht⟩ := Cert.FocalPre.of_pre _ _ (hpre c)
  exact Cert.ReferenceIdeal.Ref.ref_eq _ _ hx (fun i => ht i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
